-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 86
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run, with its result named.

  The program is seven segments: three stretches of host operations, the first launch, a stretch, the second launch, a
  last stretch. Every weakly fair execution ends with each unscoped buffer of a core at the contents the segments leave
  one after the other (the last boundary's contents); read at the result buffer this names the program's result, and at
  the six argument buffers it gives back the launch contents.
-/
import proofs.«153470_j9869834846215_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ValueRun

end
-- ==== Proof.HostChain.lean ====
/-
  The host side of a two-layer graph convolution, as pure functions of the arrays.

  From the edge array e (two rows of 1600000 node numbers) the program appends the 100000 self loops to each row:
  src(e), dst(e), of length 1700000. The degree of node v is the number of positions k with dst(e)(k) = v (a sum of
  ones scattered along dst), dinv(v) = 1/sqrt(deg v) where deg v > 0 and 0 elsewhere, and the edge weight is
  norm(e)(k) = dinv(src k) · dinv(dst k), node numbers read with Python's wrap-around (a negative number has 100000
  added). One aggregation layer takes a 100000×128 array Y (the node features after the dense transform), gathers its
  rows at src, scales row k by norm k, sums the scaled rows into the rows dst k of the zero array, and adds the bias b
  to every row:   layer(Y)(v, ·) = Σ_{k : dst k = v} norm k · Y(src k, ·) + b.
  Both programs' results are layer(max(layer(X·W1) , 0)·W2) for these same functions of e and the two biases; they
  differ only in how the two products are computed.
-/
import proofs.«153470_j9869834846215_1_alg».proof.Proof.Gen.KernelIdeal

noncomputable section

namespace Cert.KernelIdeal.Chain

open Idealize.ShloMosaic Cert.KernelIdeal Cert.KernelIdeal.Facts₀

variable {F : FTy → Type} [FloatOps F]

/-- The sources: row 0 of the edge array, then the 100000 self loops. -/
def srcOf (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations: row 1 of the edge array, then the 100000 self loops. -/
def dstOf (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The degrees: ones summed into the destinations. -/
def degOf (e : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstOf e)) (broadcastInDim S1700000 ![] bcast_S_S1700000 (constant S_ .f32 0x3F800000#32))

/-- deg^(-1/2) where the degree is positive, 0 elsewhere. -/
def dinvOf (e : IVec S2x1600000 32) : FVec F S100000 .f32 :=
  select (cmpf (F := F) .ogt (degOf e) (broadcastInDim S100000 ![] bcast_S_S100000 (constant S_ .f32 0x00000000#32))) (Host.rsqrt (degOf e)) (broadcastInDim S100000 ![] bcast_S_S100000 (id (constant S_ .f32 0x00000000#32)))

/-- Python's wrap-around of node numbers: a negative number has 100000 added. -/
def wrapIdx (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- The edge weights dinv(src) · dinv(dst). -/
def normOf (e : IVec S2x1600000 32) : FVec F S1700000 .f32 :=
  mulf (Host.gather gather_S100000_S1700000x1_S1700000_n_0_n_n_0_1_1 (dinvOf (F := F) e) (broadcastInDim S1700000x1 ![0] bcast_S1700000_S1700000x1_0 (wrapIdx (srcOf e)))) (Host.gather gather_S100000_S1700000x1_S1700000_n_0_n_n_0_1_1 (dinvOf (F := F) e) (broadcastInDim S1700000x1 ![0] bcast_S1700000_S1700000x1_0 (wrapIdx (dstOf e))))

/-- One aggregation layer: rows of `Y` gathered at `s`, scaled by `nrm`, summed into the rows `d`, plus the bias. -/
def layerOf (Y : FVec F S100000x128 .f32) (nrm : FVec F S1700000 .f32) (s d : IVec S1700000 32) (b : FVec F S128 .f32) :
    FVec F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (broadcastInDim S1700000x128 ![0, 1] bcast_S1700000x1_S1700000x128_0_1 (broadcastInDim S1700000x1 ![0] bcast_S1700000_S1700000x1_0 nrm)) (Host.gather gather_S100000x128_S1700000x1_S1700000x128_1_0_n_n_0_1_1128 Y (broadcastInDim S1700000x1 ![0] bcast_S1700000_S1700000x1_0 (wrapIdx s))))) (broadcastInDim S100000x128 ![0, 1] bcast_S1x128_S100000x128_0_1 (broadcastInDim S1x128 ![1] bcast_S128_S1x128_1 b))

/-- The dense transform X · W of a 100000×128 array with a 128×128 weight, as the host computes it at once. -/
def product (X : FVec F S100000x128 .f32) (W : FVec F S128x128 .f32) : FVec F S100000x128 .f32 :=
  Host.dotGeneral (φ₁ := .f32) (φ₂ := .f32) (DotDims.plain 100000 128 128) none X W

/-- max(H, 0) · W: the rectifier entry by entry, then the dense transform. -/
def reluProduct (H : FVec F S100000x128 .f32) (W : FVec F S128x128 .f32) : FVec F S100000x128 .f32 :=
  product (maximumf H (broadcastInDim S100000x128 ![] bcast_S_S100000x128 (constant S_ .f32 0x00000000#32))) W

/-- The two-layer network: layer(max(layer(x · W1) + b1, 0) · W2) + b2, both layers over the one graph `e`. -/
def gcn (x : FVec F S100000x128 .f32) (e : IVec S2x1600000 32) (W1 : FVec F S128x128 .f32) (b1 : FVec F S128 .f32)
    (W2 : FVec F S128x128 .f32) (b2 : FVec F S128 .f32) : FVec F S100000x128 .f32 :=
  layerOf (reluProduct (layerOf (product x W1) (normOf e) (srcOf e) (dstOf e) b1) W2) (normOf e) (srcOf e) (dstOf e) b2

end Cert.KernelIdeal.Chain

end
-- ==== Proof.Prologue.lean ====
/-
  The contents the first launch finds: the 40 host operations before it compute, from the edge array e alone, the
  sources src(e), the destinations dst(e) and the edge weights norm(e); they write no argument array.
-/
import proofs.«153470_j9869834846215_1_alg».proof.Proof.Gen.KernelIdeal.Frame
import proofs.«153470_j9869834846215_1_alg».proof.Proof.HostChain
import Idealize.ShloMosaic.Lib.StableHlo.Run

set_option maxRecDepth 16384

noncomputable section

namespace Cert.KernelIdeal.Prologue

open Idealize.ShloMosaic Idealize.ShloMosaic.TcCoe Idealize.ShloMosaic.StableHlo
open Idealize.SL Idealize.SL.Sem
open Cert.KernelIdeal Cert.KernelIdeal.Gen Cert.KernelIdeal.Chain

variable {F : FTy → Type} [FloatOps F]
variable (m : (ℓ : Loc nD τ sig) → Buf (Elt F) ℓ) (ρ : Dev nD → PrngReg)

/-- Before the first launch the source buffer holds src(e). -/
theorem W3_src (c : Dev nD) : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp <;> rfl

/-- Before the first launch the destination buffer holds dst(e). -/
theorem W3_dst (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp <;> rfl

/-- Before the first launch the weight buffer holds norm(e) = dinv(src) · dinv(dst). -/
theorem W3_norm (c : Dev nD) : W3 m ρ c (Proc.devRef .tc main_v29) = normOf (F := F) (m ((c : Thread nD τ).loc main_arg1)) := by
  show StableHlo.after hostOps0_2 (StableHlo.after hostOps0_1 (StableHlo.after hostOps0 (W0 m ρ c))) (Proc.devRef .tc main_v29) = _
  simp only [hostOps0, hostOps0_1, hostOps0_2]
  after_results_simp <;> rfl

/-- Argument 0 is as launched when the first launch is entered. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp <;> rfl

/-- Argument 2 is as launched when the first launch is entered. -/
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results_simp <;> rfl

/-- Argument 3 is as launched when the first launch is entered. -/
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp <;> rfl

/-- Argument 4 is as launched when the first launch is entered. -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp <;> rfl

/-- Argument 5 is as launched when the first launch is entered. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp <;> rfl

end Cert.KernelIdeal.Prologue

end
-- ==== Proof.Stretches.lean ====
/-
  The two stretches of host operations after the launches. Each is one aggregation layer applied to the array the
  launch before it left: it reads the launch's output, the weights norm, the sources and destinations and a bias, and
  writes none of them. Between the boundaries a launch changes only its own output array, and a stretch only the
  buffers of its own operations.
-/
import proofs.«153470_j9869834846215_1_alg».proof.Proof.Gen.KernelIdeal.Frame
import proofs.«153470_j9869834846215_1_alg».proof.Proof.HostChain
import Idealize.ShloMosaic.Lib.StableHlo.Run

set_option maxRecDepth 16384

noncomputable section

namespace Cert.KernelIdeal.Stretches

open Idealize.ShloMosaic Idealize.ShloMosaic.TcCoe Idealize.ShloMosaic.StableHlo
open Idealize.SL Idealize.SL.Sem
open Cert.KernelIdeal Cert.KernelIdeal.Gen Cert.KernelIdeal.Chain

variable {F : FTy → Type} [FloatOps F]
variable (m : (ℓ : Loc nD τ sig) → Buf (Elt F) ℓ) (ρ : Dev nD → PrngReg)

/-! ## What the first launch leaves alone -/
theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_v29 (c : Dev nD) : W4 m ρ c (Proc.devRef .tc main_v29) = W3 m ρ c (Proc.devRef .tc main_v29) := W4_of_ne m ρ c main_v29 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)

/-! ## The stretch between the launches -/

/-- The array the second launch reads: the layer of the first launch's output, with the first bias. -/
theorem W5_v46 (c : Dev nD) : W5 m ρ c (Proc.devRef .tc main_v46)
    = layerOf (W4 m ρ c (Proc.devRef .tc main_v30)) (W4 m ρ c (Proc.devRef .tc main_v29)) (W4 m ρ c (Proc.devRef .tc main_v3))
        (W4 m ρ c (Proc.devRef .tc main_v6)) (W4 m ρ c (Proc.devRef .tc main_arg3)) := by
  show StableHlo.after hostOps1 (W4 m ρ c) (Proc.devRef .tc main_v46) = _
  simp only [hostOps1]
  after_results_simp <;> rfl

theorem W5_v3 (c : Dev nD) : W5 m ρ c (Proc.devRef .tc main_v3) = W4 m ρ c (Proc.devRef .tc main_v3) := by
  show StableHlo.after hostOps1 (W4 m ρ c) (Proc.devRef .tc main_v3) = _
  simp only [hostOps1]
  after_results_simp <;> rfl

theorem W5_v6 (c : Dev nD) : W5 m ρ c (Proc.devRef .tc main_v6) = W4 m ρ c (Proc.devRef .tc main_v6) := by
  show StableHlo.after hostOps1 (W4 m ρ c) (Proc.devRef .tc main_v6) = _
  simp only [hostOps1]
  after_results_simp <;> rfl

theorem W5_v29 (c : Dev nD) : W5 m ρ c (Proc.devRef .tc main_v29) = W4 m ρ c (Proc.devRef .tc main_v29) := by
  show StableHlo.after hostOps1 (W4 m ρ c) (Proc.devRef .tc main_v29) = _
  simp only [hostOps1]
  after_results_simp <;> rfl

theorem W5_arg4 (c : Dev nD) : W5 m ρ c (Proc.devRef .tc main_arg4) = W4 m ρ c (Proc.devRef .tc main_arg4) := by
  show StableHlo.after hostOps1 (W4 m ρ c) (Proc.devRef .tc main_arg4) = _
  simp only [hostOps1]
  after_results_simp <;> rfl

theorem W5_arg5 (c : Dev nD) : W5 m ρ c (Proc.devRef .tc main_arg5) = W4 m ρ c (Proc.devRef .tc main_arg5) := by
  show StableHlo.after hostOps1 (W4 m ρ c) (Proc.devRef .tc main_arg5) = _
  simp only [hostOps1]
  after_results_simp <;> rfl

/-! ## What the second launch leaves alone -/
theorem W6_v3 (c : Dev nD) : W6 m ρ c (Proc.devRef .tc main_v3) = W5 m ρ c (Proc.devRef .tc main_v3) := W6_of_ne m ρ c main_v3 (by decide)
theorem W6_v6 (c : Dev nD) : W6 m ρ c (Proc.devRef .tc main_v6) = W5 m ρ c (Proc.devRef .tc main_v6) := W6_of_ne m ρ c main_v6 (by decide)
theorem W6_v29 (c : Dev nD) : W6 m ρ c (Proc.devRef .tc main_v29) = W5 m ρ c (Proc.devRef .tc main_v29) := W6_of_ne m ρ c main_v29 (by decide)
theorem W6_arg5 (c : Dev nD) : W6 m ρ c (Proc.devRef .tc main_arg5) = W5 m ρ c (Proc.devRef .tc main_arg5) := W6_of_ne m ρ c main_arg5 (by decide)

/-! ## The last stretch -/

/-- The result: the layer of the second launch's output, with the second bias. -/
theorem W7_v63 (c : Dev nD) : W7 m ρ c (Proc.devRef .tc main_v63)
    = layerOf (W6 m ρ c (Proc.devRef .tc main_v47)) (W6 m ρ c (Proc.devRef .tc main_v29)) (W6 m ρ c (Proc.devRef .tc main_v3))
        (W6 m ρ c (Proc.devRef .tc main_v6)) (W6 m ρ c (Proc.devRef .tc main_arg5)) := by
  show StableHlo.after hostOps2 (W6 m ρ c) (Proc.devRef .tc main_v63) = _
  simp only [hostOps2]
  after_results_simp <;> rfl

end Cert.KernelIdeal.Stretches

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibRowsOfProduct.lean ====
/-
  Rows of a matrix product.

  For an M×k matrix X and a k×n matrix W, row i of X·W depends on row i of X alone:
  (X·W)(i, q) = ∑_c X(i, c) · W(c, q). So if a b×k matrix A holds the rows r(0), …, r(b-1) of X — A(p, c) = X(r p, c) —
  and B agrees with W, then the product A·B accumulated into the zero matrix is, entry by entry, the rows r(p) of the
  host's product X·W: (A·B)(p, q) = (X·W)(r p, q). On the extended reals this needs no finiteness: both sides are the
  same sum of the same products, term by term.

  Used for a product computed block of rows by block of rows against the product computed at once.
-/
import proofs.«153470_j9869834846215_1_alg».proof.Proof.LibPlainMatmul
import proofs.«153470_j9869834846215_1_alg».proof.Proof.LibPlainDot

noncomputable section

open scoped BigOperators

namespace Idealize.ShloMosaic.ValueIdx

open Idealize.ShloMosaic

/-- If `A` holds the rows `r p` of `X` and `B` agrees with `W`, the plain product `A·B` into the zero matrix is,
    at `(p, q)`, the host's plain product `X·W` at `(r p, q)` — whatever the formats the operands are written in. -/
theorem matmul_rows_eq_dotGeneral {M b k n : Nat} {φ₁ φ₂ ψ₁ ψ₂ : FTy} (prec prec' : Option ContractPrecision)
    (X : FVec Ideal ⟨2, ![M, k]⟩ ψ₁) (W : FVec Ideal ⟨2, ![k, n]⟩ ψ₂)
    (A : FVec Ideal ⟨2, ![b, k]⟩ φ₁) (B : FVec Ideal ⟨2, ![k, n]⟩ φ₂) (r : Fin b → Fin M)
    (hA : ∀ (p : Fin b) (c : Fin k), (A (ix2 p c) : EReal) = X (ix2 (r p) c))
    (hB : ∀ (c : Fin k) (q : Fin n), (B (ix2 c q) : EReal) = W (ix2 c q))
    (p : Fin b) (q : Fin n) :
    matmul (DotDims.plain b k n) prec A B (constant ⟨2, ![b, n]⟩ .f32 0x00000000#32) (ix2 p q)
      = Host.dotGeneral (DotDims.plain M k n) prec' X W (ix2 (r p) q) := by
  rw [matmul_plain_zero_apply, hostDotGeneral_plain_apply]
  exact Finset.sum_congr rfl fun c _ => by rw [hA, hB]

end Idealize.ShloMosaic.ValueIdx

end
-- ==== Proof.RegionProducts.lean ====
/-
  What the two launches leave in their output arrays, as whole-array functions of the arrays each launch finds.

  Both launches run over 20 grid points; at point t the body sees rows [5000·t, 5000·t + 5000) of its first operand
  (all 128 columns), the whole 128×128 weight, and writes the same rows of its output. The first body stores the
  product of its row block with the weight (the casts to bf16 are the identity on the extended reals, and the product is
  accumulated into the zero matrix), the second takes max(·, 0) of its row block first. A row of a matrix product
  depends on that row of the left factor alone, so block t of the output is block t of the product of the WHOLE left
  operand with the weight; the 20 blocks cover the 100000 rows, so the output array ends as that product:
    launch 0:  X ↦ X · W          launch 1:  H ↦ max(H, 0) · W.
-/
import proofs.«153470_j9869834846215_1_alg».proof.Proof.Gen.KernelIdeal.Frame
import proofs.«153470_j9869834846215_1_alg».proof.Proof.LibRowsOfProduct
import proofs.«153470_j9869834846215_1_alg».proof.Proof.HostChain
import Idealize.ShloMosaic.Lib.Pipeline.Value

set_option maxRecDepth 16384

noncomputable section

namespace Cert.KernelIdeal.Products

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Chain

theorem hz : (![0, 0] : Fin 2 → Nat) = fun _ => 0 := funext fun a => by fin_cases a <;> rfl

/-! ## The bodies' stored values at an entry -/

/-- The first body's stored value at (p, q), when its row block holds the rows `r p` of X and its weight block is W:
    the entry (r p, q) of X · W. -/
theorem pay0_apply (x0 : FVec Ideal S5000x128 .f32) (x1 : FVec Ideal S128x128 .f32)
    (X : FVec Ideal S100000x128 .f32) (W : FVec Ideal S128x128 .f32) (r : Fin 5000 → Fin 100000)
    (h0 : ∀ (p : Fin 5000) (c : Fin 128), x0 (ix2 p c) = X (ix2 (r p) c))
    (h1 : ∀ (c q : Fin 128), x1 (ix2 c q) = W (ix2 c q)) (p : Fin 5000) (q : Fin 128) :
    k0_pay1 (F := Ideal) x0 x1 (ix2 p q) = product (F := Ideal) X W (ix2 (r p) q) :=
  matmul_rows_eq_dotGeneral (φ₁ := .bf16) (φ₂ := .bf16) (ψ₁ := .f32) (ψ₂ := .f32) none none X W
    (truncf .bf16 x0 Facts₀.bitsLt_bf16_f32) (truncf .bf16 x1 Facts₀.bitsLt_bf16_f32) r h0 h1 p q

/-- The second body's stored value at (p, q), when its row block holds the rows `r p` of H and its weight block is W:
    the entry (r p, q) of max(H, 0) · W — the rectifier acts entry by entry, so it commutes with taking rows. -/
theorem pay1_apply (x0 : FVec Ideal S5000x128 .f32) (x1 : FVec Ideal S128x128 .f32)
    (H : FVec Ideal S100000x128 .f32) (W : FVec Ideal S128x128 .f32) (r : Fin 5000 → Fin 100000)
    (h0 : ∀ (p : Fin 5000) (k : Fin 128), x0 (ix2 p k) = H (ix2 (r p) k))
    (h1 : ∀ (k q : Fin 128), x1 (ix2 k q) = W (ix2 k q)) (p : Fin 5000) (q : Fin 128) :
    k1_pay1 (F := Ideal) x0 x1 (ix2 p q) = reluProduct (F := Ideal) H W (ix2 (r p) q) := by
  refine matmul_rows_eq_dotGeneral (φ₁ := .bf16) (φ₂ := .bf16) (ψ₁ := .f32) (ψ₂ := .f32) none none
    (maximumf H (broadcastInDim S100000x128 ![] Facts₀.bcast_S_S100000x128 (constant S_ .f32 0x00000000#32))) W
    (truncf .bf16 (maximumf (shapeCast S5000x128 x0 Facts₀.shapeCasts_S5000x128_S5000x128)
      (broadcast S5000x128 (Scalar.ofBits .f32 0x00000000#32))) Facts₀.bitsLt_bf16_f32)
    (truncf .bf16 x1 Facts₀.bitsLt_bf16_f32) r (fun p k => ?_) h1 p q
  show max (shapeCast S5000x128 x0 Facts₀.shapeCasts_S5000x128_S5000x128 (ix2 p k)) _ = max (H (ix2 (r p) k)) _
  rw [shapeCast_self, h0]
  rfl

variable (V : (c : Dev nD) → (b : Ref sig .tc) → Buf (Elt Ideal) ((c : Thread nD τ).loc b))

/-! ## Launch 0 -/

/-- The printed index maps over the grid: the row blocks of the first operand and of the output move with the point,
    the weight's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of X · W, X and W the arrays the launch finds. -/
theorem flushed0 (c : Dev nD) (t : Fin cfg0.N) :
    (dat0 V c).flushed 2 t = ((cfg0.win 2).blk t).view.read (Elt Ideal) (product (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx0 t
  have ht : t.val < 20 := lt_of_lt_of_eq t.isLt N_0
  funext j
  obtain ⟨p, q, rfl⟩ : ∃ (p : Fin 5000) (q : Fin 128), j = ix2 p q := ⟨j 0, j 1, eq_ix2 j⟩
  have hemb : ((cfg0.win 2).blk t).view.emb (ix2 p q) = ix2 (⟨5000 * t.val + p.val, by omega⟩ : Fin 100000) q := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  show k0_pay1 (iblk0 V c 0 t) (iblk0 V c 1 t) (ix2 p q)
    = product (F := Ideal) (V c main_arg0) (V c main_arg2) (((cfg0.win 2).blk t).view.emb (ix2 p q))
  rw [hemb]
  refine pay0_apply (iblk0 V c 0 t) (iblk0 V c 1 t) (V c main_arg0) (V c main_arg2)
    (fun p => ⟨5000 * t.val + p.val, by omega⟩) (fun p k => ?_) (fun k q => ?_) p q
  · show V c main_arg0 (((cfg0.win 0).blk t).view.emb (ix2 p k)) = V c main_arg0 (ix2 ⟨5000 * t.val + p.val, _⟩ k)
    refine congrArg (V c main_arg0) ?_
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row i of the output is written by point i / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e20, e21⟩ := idx0 ⟨(i 0).val / 5000, hlt⟩
  have e20' : win0_2.index ⟨(i 0).val / 5000, hlt⟩ (0 : Fin 2) = (i 0).val / 5000 := e20
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

/-- Launch 0 leaves X · W in its output array. -/
theorem final0 (c : Dev nD) : (dat0 V c).arrAt 2 cfg0.N = product (F := Ideal) (V c main_arg0) (V c main_arg2) :=
  (dat0 V c).arrAt_eq_of_cover 2 (product (F := Ideal) (V c main_arg0) (V c main_arg2)) (fun t _ => flushed0 V c t) (fun i => cover0 i)

/-! ## Launch 1 -/

/-- The printed index maps over the grid: the row blocks of the first operand and of the output move with the point,
    the weight's block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of max(H, 0) · W, H and W the arrays the launch finds. -/
theorem flushed1 (c : Dev nD) (t : Fin cfg1.N) :
    (dat1 V c).flushed 2 t = ((cfg1.win 2).blk t).view.read (Elt Ideal) (reluProduct (F := Ideal) (V c main_v46) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e00, e01, e10, e11, e20, e21⟩ := idx1 t
  have ht : t.val < 20 := lt_of_lt_of_eq t.isLt N_1
  funext j
  obtain ⟨p, q, rfl⟩ : ∃ (p : Fin 5000) (q : Fin 128), j = ix2 p q := ⟨j 0, j 1, eq_ix2 j⟩
  have hemb : ((cfg1.win 2).blk t).view.emb (ix2 p q) = ix2 (⟨5000 * t.val + p.val, by omega⟩ : Fin 100000) q := by
    funext a; apply Fin.ext
    match a with
    | ⟨0, _⟩ => show win1_2.index t (0 : Fin 2) * 5000 + 1 * p.val = 5000 * t.val + p.val; omega
    | ⟨1, _⟩ => show win1_2.index t (1 : Fin 2) * 128 + 1 * q.val = q.val; omega
  show k1_pay1 (iblk1 V c 0 t) (iblk1 V c 1 t) (ix2 p q)
    = reluProduct (F := Ideal) (V c main_v46) (V c main_arg4) (((cfg1.win 2).blk t).view.emb (ix2 p q))
  rw [hemb]
  refine pay1_apply (iblk1 V c 0 t) (iblk1 V c 1 t) (V c main_v46) (V c main_arg4)
    (fun p => ⟨5000 * t.val + p.val, by omega⟩) (fun p k => ?_) (fun k q => ?_) p q
  · show V c main_v46 (((cfg1.win 0).blk t).view.emb (ix2 p k)) = V c main_v46 (ix2 ⟨5000 * t.val + p.val, _⟩ k)
    refine congrArg (V c main_v46) ?_
    funext a; apply Fin.ext
    match a with
    | ⟨0, _⟩ => show win1_0.index t (0 : Fin 2) * 5000 + 1 * p.val = 5000 * t.val + p.val; omega
    | ⟨1, _⟩ => show win1_0.index t (1 : Fin 2) * 128 + 1 * k.val = k.val; omega
  · show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Row i of the output is written by point i / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, e20, e21⟩ := idx1 ⟨(i 0).val / 5000, hlt⟩
  have e20' : win1_2.index ⟨(i 0).val / 5000, hlt⟩ (0 : Fin 2) = (i 0).val / 5000 := e20
  refine ⟨⟨(i 0).val / 5000, hlt⟩, flush1_2 _, ?_⟩
  rw [mem_blk1]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    omega
  | ⟨1, _⟩ =>
    show win1_2.index ⟨(i 0).val / 5000, hlt⟩ (1 : Fin 2) * 128 ≤ (i 1).val
      ∧ (i 1).val < win1_2.index ⟨(i 0).val / 5000, hlt⟩ (1 : Fin 2) * 128 + 128
    omega

/-- Launch 1 leaves max(H, 0) · W in its output array. -/
theorem final1 (c : Dev nD) : (dat1 V c).arrAt 2 cfg1.N = reluProduct (F := Ideal) (V c main_v46) (V c main_arg4) :=
  (dat1 V c).arrAt_eq_of_cover 2 (reluProduct (F := Ideal) (V c main_v46) (V c main_arg4)) (fun t _ => flushed1 V c t) (fun i => cover1 i)

end Cert.KernelIdeal.Products

end
-- ==== Proof.KernelValue.lean ====
/-
  The idealized kernel's result is the two-layer network of its arguments.

  Walking the segment boundaries from the launch: the prologue leaves src(e), dst(e), norm(e); the first launch leaves
  x · W1 in its output and touches nothing else; the stretch after it applies one layer with the bias b1; the second
  launch leaves max(·, 0) · W2 of that; the last stretch applies the layer again with b2. Sources, destinations, weights
  and the arguments are carried unchanged across every launch and stretch that does not write them.
-/
import proofs.«153470_j9869834846215_1_alg».proof.Proof.Prologue
import proofs.«153470_j9869834846215_1_alg».proof.Proof.Stretches
import proofs.«153470_j9869834846215_1_alg».proof.Proof.RegionProducts

set_option maxRecDepth 16384

noncomputable section

namespace Cert.KernelIdeal.KernelValue

open Idealize.ShloMosaic Idealize.ShloMosaic.TcCoe
open Idealize.SL Idealize.SL.Sem
open Cert.KernelIdeal Cert.KernelIdeal.Gen Cert.KernelIdeal.Chain
open Cert.KernelIdeal.Prologue Cert.KernelIdeal.Stretches Cert.KernelIdeal.Products

variable (m : (ℓ : Loc nD τ sig) → Buf (Elt Ideal) ℓ) (ρ : Dev nD → PrngReg)

/-- The first launch's output array ends as x · W1. -/
theorem W4_v30 (c : Dev nD) : W4 m ρ c (Proc.devRef .tc main_v30) = product (F := Ideal) (m ((c : Thread nD τ).loc main_arg0)) (m ((c : Thread nD τ).loc main_arg2)) := by
  refine (W4_arr m ρ c 2).trans ?_
  rw [final0 (V3 m ρ) c]
  show product (F := Ideal) (W3 m ρ c (Proc.devRef .tc main_arg0)) (W3 m ρ c (Proc.devRef .tc main_arg2)) = _
  rw [W3_arg0, W3_arg2]

/-- The array the second launch reads: the first layer, layer(x · W1) + b1. -/
theorem W5_v46_eq (c : Dev nD) : W5 m ρ c (Proc.devRef .tc main_v46)
    = layerOf (product (F := Ideal) (m ((c : Thread nD τ).loc main_arg0)) (m ((c : Thread nD τ).loc main_arg2))) (normOf (m ((c : Thread nD τ).loc main_arg1))) (srcOf (m ((c : Thread nD τ).loc main_arg1)))
        (dstOf (m ((c : Thread nD τ).loc main_arg1))) (m ((c : Thread nD τ).loc main_arg3)) := by
  rw [W5_v46, W4_v30, W4_v29, W4_v3, W4_v6, W4_arg3, W3_norm, W3_src, W3_dst, W3_arg3]

/-- The second launch's output array ends as max(layer 1, 0) · W2. -/
theorem W6_v47 (c : Dev nD) : W6 m ρ c (Proc.devRef .tc main_v47)
    = reluProduct (layerOf (product (F := Ideal) (m ((c : Thread nD τ).loc main_arg0)) (m ((c : Thread nD τ).loc main_arg2))) (normOf (m ((c : Thread nD τ).loc main_arg1))) (srcOf (m ((c : Thread nD τ).loc main_arg1)))
        (dstOf (m ((c : Thread nD τ).loc main_arg1))) (m ((c : Thread nD τ).loc main_arg3))) (m ((c : Thread nD τ).loc main_arg4)) := by
  refine (W6_arr m ρ c 2).trans ?_
  rw [final1 (V5 m ρ) c]
  show reluProduct (F := Ideal) (W5 m ρ c (Proc.devRef .tc main_v46)) (W5 m ρ c (Proc.devRef .tc main_arg4)) = _
  rw [W5_v46_eq, W5_arg4, W4_arg4, W3_arg4]

/-- THE RESULT: the last boundary's contents at the result buffer is the network of the six arguments. -/
theorem value (c : Dev nD) : W7 m ρ c (Proc.devRef .tc main_v63)
    = gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W7_v63, W6_v47, W6_v29, W5_v29, W4_v29, W3_norm, W6_v3, W5_v3, W4_v3, W3_src, W6_v6, W5_v6, W4_v6, W3_dst,
    W6_arg5, W5_arg5, W4_arg5, W3_arg5]
  rfl

end Cert.KernelIdeal.KernelValue

end
-- ==== Proof.ReferenceValue.lean ====
/-
  The reference's result is the two-layer network of its arguments.

  Its 83 host operations compose to one term of the argument arrays; that term is, operation for operation, the
  network layer(max(layer(x · W1) + b1, 0) · W2) + b2 over the graph e: the same sources, destinations and edge weights,
  the same gather / scale / scatter-add / bias, and the dense transform as the host's product of the whole arrays.
-/
import proofs.«153470_j9869834846215_1_alg».proof.Proof.RefRunPatched
import proofs.«153470_j9869834846215_1_alg».proof.Proof.HostChain

set_option maxRecDepth 16384

noncomputable section

namespace Cert.ReferenceIdeal.RefValue

open Idealize.ShloMosaic Idealize.ShloMosaic.TcCoe Idealize.SL.Sem

variable {F : FTy → Type} [FloatOps F]

/-- The reference run's result term is the network of the launch contents of its six arguments. -/
theorem result_eq (m : (ℓ : Loc Cert.ReferenceIdeal.nD Cert.ReferenceIdeal.τ Cert.ReferenceIdeal.sig) → Buf (Elt F) ℓ)
    (c : Dev Cert.ReferenceIdeal.nD) :
    Cert.ReferenceIdeal.ValueP.res_main_v64 (F := F) m c
      = Cert.KernelIdeal.Chain.gcn (F := F)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) := by
  unfold Cert.ReferenceIdeal.ValueP.res_main_v64
  rfl

end Cert.ReferenceIdeal.RefValue

end
-- ==== Proof.lean ====
/-
  A two-layer graph convolution whose dense transforms run as row-blocked kernels, against the same network written
  with whole-array products.

  With e the edge array, src / dst its two rows extended by the self loops, deg the number of edges into a node,
  norm = deg(src)^(-1/2) · deg(dst)^(-1/2) (0 where a degree is 0), and
      layer(Y)(v, ·) = Σ_{k : dst k = v} norm k · Y(src k, ·) + b,
  both programs compute  layer₂(max(layer₁(x · W1), 0) · W2).  The kernel program computes each product in 20 launches
  of a body that multiplies 5000 rows at a time by the whole weight (rounding its operands to bf16, which is the
  identity on the extended reals, and accumulating into zero), the second body taking max(·, 0) of its rows first; the
  reference computes each product at once. Row i of a product depends only on row i of the left factor, and max(·, 0)
  acts entry by entry, so the blocks written back are the blocks of the whole products, and they cover all 100000 rows.
  Everything else — indices, degrees, weights, gather, scaling, scatter-add, bias — is the same operations in both
  programs, applied to equal arrays. No law of the extended reals beyond equality of the same sums is used, so the
  finiteness of the inputs is not needed for the values.

  The frames are the generated ones; the ideal pass rewrote nothing, so `preserves` is `True`.
-/
import proofs.«153470_j9869834846215_1_alg».proof.Defs
import proofs.«153470_j9869834846215_1_alg».proof.Proof.Gen.Kernel
import proofs.«153470_j9869834846215_1_alg».proof.Proof.Gen.Kernel.Frame
import proofs.«153470_j9869834846215_1_alg».proof.Proof.Gen.KernelIdeal
import proofs.«153470_j9869834846215_1_alg».proof.Proof.Gen.KernelIdeal.Frame
import proofs.«153470_j9869834846215_1_alg».proof.Proof.Gen.ReferenceIdeal
import proofs.«153470_j9869834846215_1_alg».proof.Proof.Gen.Pre_finite_inputs
import proofs.«153470_j9869834846215_1_alg».proof.Proof.KernelRun
import proofs.«153470_j9869834846215_1_alg».proof.Proof.KernelValue
import proofs.«153470_j9869834846215_1_alg».proof.Proof.RefRunPatched
import proofs.«153470_j9869834846215_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the network of the (agreeing) arguments in their result buffers. -/
theorem algebraic : Cert.algebraic_KernelIdeal_ReferenceIdeal := by
  intro m ρ m' ρ' _ hagree
  refine ⟨fun c => Cert.KernelIdeal.Chain.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.value m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
